-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x3x64x64 : Shape := ⟨4, ![1, 3, 64, 64]⟩
abbrev S_ : Shape := ⟨0, ![]⟩

class Facts : Prop where
  bcast_S_S1x3x64x64 : S_.BroadcastsInDim S1x3x64x64 (![] : Fin 0 → Fin S1x3x64x64.rank)
  reducesTo_S1x3x64x64_S_d0_1_2_3 : S1x3x64x64.ReducesTo [0, 1, 2, 3] S_
  h_S_ : 0 < S_.numel

variable [Facts]

def fn {F : FTy → Type} [FloatOps F] (main_arg0 : FVec F S1x3x64x64 .f32) : IVec S_ 1 :=
  let main_v0 : FVec F S1x3x64x64 .f32 := Host.absf main_arg0
  let main_cst : FVec F S_ .f32 := constant S_ .f32 0x7F800000#32
  let main_v1 : FVec F S1x3x64x64 .f32 := broadcastInDim S1x3x64x64 ![] bcast_S_S1x3x64x64 main_cst
  let main_v2 : IVec S1x3x64x64 1 := cmpf .olt main_v0 main_v1
  let main_c : IVec S_ 1 := constantI S_ 1 1#1
  let main_v3 : IVec S_ 1 := (fun x v => Host.reduce IntOp.andi x v reducesTo_S1x3x64x64_S_d0_1_2_3 h_S_) main_v2 main_c
  main_v3
-- ==== Kernel.lean ====
abbrev S1x3x64x64 : Shape := ⟨4, ![1, 3, 64, 64]⟩
abbrev S1x12288 : Shape := ⟨2, ![1, 12288]⟩
abbrev S12289x12288 : Shape := ⟨2, ![12289, 12288]⟩
abbrev S1x1024 : Shape := ⟨2, ![1, 1024]⟩
abbrev S512x1024 : Shape := ⟨2, ![512, 1024]⟩
abbrev S12289x3x64x64 : Shape := ⟨4, ![12289, 3, 64, 64]⟩

abbrev nBuf : Space → Nat
  | .hbm => 4
  | .vmem => 4
  | .smem => 0
  | _ => 0

abbrev bufTy : (tb : Table) → Fin (tcTables nBuf tb) → BufTy
  | .hbm, ⟨0, _⟩ => ⟨S1x3x64x64, .f32⟩
  | .hbm, ⟨1, _⟩ => ⟨S1x12288, .f32⟩
  | .hbm, ⟨2, _⟩ => ⟨S12289x12288, .f32⟩
  | .hbm, ⟨3, _⟩ => ⟨S12289x3x64x64, .f32⟩
  | .local _ .vmem, ⟨0, _⟩ => ⟨S1x1024, .f32⟩
  | .local _ .vmem, ⟨1, _⟩ => ⟨S1x1024, .f32⟩
  | .local _ .vmem, ⟨2, _⟩ => ⟨S512x1024, .f32⟩
  | .local _ .vmem, ⟨3, _⟩ => ⟨S512x1024, .f32⟩
  | _, _ => ⟨S1x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![25, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S1x3x64x64_S1x12288 : S1x3x64x64.ShapeCasts S1x12288
  iota_S512x1024_d0_w32 : S512x1024.Iotas .tc 32 [0]
  iota_S512x1024_d1_w32 : S512x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S12289x12288_S12289x3x64x64 : S12289x12288.ShapeCasts S12289x3x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x12288.size a
  hwx0_0 : ∀ i : grid0.Coords, EltTy.bits .f32 = 32 ∨ (Rect.block (s := S1x12288) S1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x1024.size a < S12289x12288.size a
  hwx0_1 : ∀ i : grid0.Coords, EltTy.bits .f32 = 32 ∨ (Rect.unit (s := S12289x12288) (fun a => cc0_transform_1 i a * S512x1024.size a) (fun a => (Pipeline.Clip.of (cc0_transform_1 i a) (S512x1024.size a) (S12289x12288.size a)).extent (S512x1024.size a)) fun a => Pipeline.Clip.inb (Pipeline.Clip.ok_of (hstart0_1 i a))).WholeWords (EltTy.packing .f32)
  hwxs0_1 : ∀ i : grid0.Coords, EltTy.bits .f32 = 32 ∨ (Rect.unit (s := S512x1024) (fun _ => 0) (fun a => (Pipeline.Clip.of (cc0_transform_1 i a) (S512x1024.size a) (S12289x12288.size a)).extent (S512x1024.size a)) fun a => (Nat.zero_add _).trans_le (Pipeline.Clip.extent_le (Pipeline.Clip.ok_of (hstart0_1 i a)))).WholeWords (EltTy.packing .f32)

variable [Facts₀]

abbrev win0_0 : Pipeline.Window sig grid0 :=
  Pipeline.Window.ofSpec (Memref.whole main_v0) S1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v1) S512x1024.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1x3x64x64 : Shape := ⟨4, ![1, 3, 64, 64]⟩
abbrev S12288x12288 : Shape := ⟨2, ![12288, 12288]⟩
abbrev S_ : Shape := ⟨0, ![]⟩
abbrev S12288x3x64x64 : Shape := ⟨4, ![12288, 3, 64, 64]⟩
abbrev S12289x3x64x64 : Shape := ⟨4, ![12289, 3, 64, 64]⟩

abbrev nBuf : Space → Nat
  | .hbm => 13
  | .vmem => 0
  | .smem => 0
  | _ => 0

abbrev bufTy : (tb : Table) → Fin (tcTables nBuf tb) → BufTy
  | .hbm, ⟨0, _⟩ => ⟨S1x3x64x64, .f32⟩
  | .hbm, ⟨1, _⟩ => ⟨S12288x12288, .i32⟩
  | .hbm, ⟨2, _⟩ => ⟨S12288x12288, .i32⟩
  | .hbm, ⟨3, _⟩ => ⟨S_, .i32⟩
  | .hbm, ⟨4, _⟩ => ⟨S12288x12288, .i32⟩
  | .hbm, ⟨5, _⟩ => ⟨S12288x12288, .i32⟩
  | .hbm, ⟨6, _⟩ => ⟨S12288x12288, .i1⟩
  | .hbm, ⟨7, _⟩ => ⟨S12288x12288, .f32⟩
  | .hbm, ⟨8, _⟩ => ⟨S_, .f32⟩
  | .hbm, ⟨9, _⟩ => ⟨S12288x12288, .f32⟩
  | .hbm, ⟨10, _⟩ => ⟨S12288x12288, .f32⟩
  | .hbm, ⟨11, _⟩ => ⟨S12288x3x64x64, .f32⟩
  | .hbm, ⟨12, _⟩ => ⟨S12289x3x64x64, .f32⟩
  | _, _ => ⟨S1x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  bcast_S_S12288x12288 : S_.BroadcastsInDim S12288x12288 (![] : Fin 0 → Fin S12288x12288.rank)
  shapeCasts_S12288x12288_S12288x3x64x64 : S12288x12288.ShapeCasts S12288x3x64x64
  concatenates_S1x3x64x64_S12288x3x64x64_S12289x3x64x64_d0 : Shape.Concatenates [S1x3x64x64, S12288x3x64x64] S12289x3x64x64 0

variable [Facts₀]

class Facts : Prop extends Facts₀ where

variable [Facts]
-- ==== Proof.GridFacts.lean ====
/-
  The grid of the one kernel launch, decided once: 25 block rows by 12 block columns. At every point the output's block
  index is the point's own two coordinates, the input row's block index is (0, the point's column coordinate), and every
  pair of coordinates is some point's. The last block row overhangs the matrix (25 · 512 > 12289): the part of a block
  that is written back has, on each axis, the block's size when the block ends inside the matrix and what is left of the
  matrix otherwise.
-/
import proofs.«103182_j17566416240900_1_alg».proof.Proof.Gen.KernelIdeal.Launch
import proofs.«103182_j17566416240900_1_alg».proof.Proof.Gen.KernelIdeal.Points

set_option maxRecDepth 16384

noncomputable section

namespace Cert.Scatter

open Idealize.ShloMosaic Idealize.ShloMosaic.TcCoe Idealize.SL.Sem
open Cert.KernelIdeal Cert.KernelIdeal.Gen

/-- The zero offsets of a whole-buffer access, as a function. -/
theorem hz : (![0, 0] : Fin 2 → Nat) = fun _ => 0 := funext fun a => by fin_cases a <;> rfl

/-- The index maps at every grid point, and the ranges of the point's coordinates. -/
theorem idx_facts : ∀ t : Fin cfg0.N,
    win0_0.index t (0 : Fin 2) = 0 ∧ win0_0.index t (1 : Fin 2) = (grid0.coords t 1).val
    ∧ win0_1.index t (0 : Fin 2) = (grid0.coords t 0).val ∧ win0_1.index t (1 : Fin 2) = (grid0.coords t 1).val
    ∧ (grid0.coords t 0).val < 25 ∧ (grid0.coords t 1).val < 12 :=
  (by decide +kernel : ∀ t : Fin grid0.N, _)

/-- Every block of the output is some point's. -/
theorem idx_onto : ∀ (q0 : Fin 25) (q1 : Fin 12), ∃ t : Fin cfg0.N, win0_1.index t = ![q0.val, q1.val] :=
  (by decide +kernel : ∀ (q0 : Fin 25) (q1 : Fin 12), ∃ t : Fin grid0.N, win0_1.index t = ![q0.val, q1.val])

/-- How much of a block of size `k` at block index `ix` lies inside an axis of extent `d`. -/
theorem extent_of (ix k d : Nat) :
    (Pipeline.Clip.of ix k d).extent k = if (ix + 1) * k ≤ d then k else d - ix * k := by
  unfold Pipeline.Clip.of; split <;> rfl

end Cert.Scatter

end
-- ==== Proof.Words.lean ====
/-
  Thirty-two-bit words of small natural numbers: the row and column identifiers the kernel computes from the grid
  position and a block coordinate are the words of the naturals one expects (nothing wraps at these sizes), two such
  words are equal exactly when the naturals are, "one less than the row" meets a column exactly when the row is the
  column's successor (row zero's predecessor is the all-ones word, which is no column), and a select or a conversion to
  float of an equality test is the `if` on the equality.
-/
import Idealize.ShloMosaic.PureOps.Ideal
import Idealize.ShloMosaic.Lib.ValueIdx

noncomputable section

namespace Cert.Scatter

open Idealize.ShloMosaic Idealize.ShloMosaic.ValueIdx

/-- Words of naturals below 2³² are equal exactly when the naturals are. -/
theorem ofNat32_inj {a b : Nat} (ha : a < 4294967296) (hb : b < 4294967296) :
    BitVec.ofNat 32 a = BitVec.ofNat 32 b ↔ a = b := by
  constructor
  · intro h
    have := congrArg BitVec.toNat h
    simp only [BitVec.toNat_ofNat] at this
    omega
  · rintro rfl; rfl

/-- The row identifier: a block row `p` offset by `t` blocks of 512 rows. -/
theorem row_word (t p : Nat) :
    IntOp.addi (BitVec.ofNat 32 p) (Scalar.muli (BitVec.ofNat 32 t) 512#32) = BitVec.ofNat 32 (t * 512 + p) := by
  unfold IntOp.addi Scalar.muli IntOp.muli
  apply BitVec.eq_of_toNat_eq
  simp only [BitVec.toNat_add, BitVec.toNat_mul, BitVec.toNat_ofNat]
  omega

/-- The column identifier: a block column `q` offset by `t` blocks of 1024 columns. -/
theorem col_word (t q : Nat) :
    IntOp.addi (BitVec.ofNat 32 q) (Scalar.muli (BitVec.ofNat 32 t) 1024#32) = BitVec.ofNat 32 (t * 1024 + q) := by
  unfold IntOp.addi Scalar.muli IntOp.muli
  apply BitVec.eq_of_toNat_eq
  simp only [BitVec.toNat_add, BitVec.toNat_mul, BitVec.toNat_ofNat]
  omega

/-- The word one less than row `r` is column `k`'s word exactly when `r = k + 1`: for `r = 0` the difference wraps to the
    all-ones word, which is the word of no small natural. -/
theorem pred_word_eq {r k : Nat} (hr : r < 2147483648) (hk : k < 2147483648) :
    IntOp.subi (BitVec.ofNat 32 r) 1#32 = BitVec.ofNat 32 k ↔ r = k + 1 := by
  unfold IntOp.subi
  constructor
  · intro h
    have := congrArg BitVec.toNat h
    simp only [BitVec.toNat_sub, BitVec.toNat_ofNat] at this
    omega
  · rintro rfl
    apply BitVec.eq_of_toNat_eq
    simp only [BitVec.toNat_sub, BitVec.toNat_ofNat]
    omega

/-- A select on an equality test is the `if` on the equality. -/
theorem select_cmpi_eq {α : Type} {w : Nat} (x y : BitVec w) (a b : α) :
    Scalar.select (IntOp.cmpi .eq x y) a b = if x = y then a else b := by
  unfold Scalar.select IntOp.cmpi
  by_cases h : x = y
  · subst h; simp
  · have hb : (x == y) = false := beq_eq_false_iff_ne.mpr h
    simp [h, hb]

/-- An equality test's bit read as a float, exactly: one when the words are equal, zero otherwise. -/
theorem uitofp_cmpi_eq {w : Nat} (x y : BitVec w) :
    FloatOps.uitofp (F := Ideal) .f32 (IntOp.cmpi .eq x y) = if x = y then (1 : EReal) else 0 := by
  unfold IntOp.cmpi
  by_cases h : x = y <;> simp [h, FloatOps.uitofp]

end Cert.Scatter

end
-- ==== Proof.Payload.lean ====
/-
  What the kernel body stores, one element at a time. At grid position `(i₀, i₁)` the element at block coordinates
  `(p, q)` has row `r = 512·i₀ + p` and column `k = 1024·i₁ + q` of the output matrix; the body stores there the input
  block's entry `q` when `r = 0`, the epsilon when `r = k + 1` (the diagonal of the rows below the first), and zero
  otherwise.
-/
import proofs.«103182_j17566416240900_1_alg».proof.Proof.Gen.KernelIdeal.Skeleton
import proofs.«103182_j17566416240900_1_alg».proof.Proof.Words
import Idealize.ShloMosaic.Lib.Pipeline.Value
import Idealize.ShloMosaic.Lib.ValueIdx
import Idealize.ShloMosaic.PureOps.Ideal.Laws

noncomputable section

namespace Cert.Scatter

open Idealize.ShloMosaic Idealize.ShloMosaic.ValueIdx Cert.KernelIdeal Cert.KernelIdeal.Gen

/-- The row iota of a block reads the block row. -/
theorem iota_row (h : S512x1024.Iotas .tc 32 [0]) (p : Fin 512) (q : Fin 1024) :
    iota .tc S512x1024 32 [0] h (ix2 p q) = BitVec.ofNat 32 p.val := by
  rw [iota_single_apply]

/-- The column iota of a block reads the block column. -/
theorem iota_col (h : S512x1024.Iotas .tc 32 [1]) (p : Fin 512) (q : Fin 1024) :
    iota .tc S512x1024 32 [1] h (ix2 p q) = BitVec.ofNat 32 q.val := by
  rw [iota_single_apply]

/-- The one input row, broadcast down the block's rows, reads its entry at the block column. -/
theorem bcast_row (x : Vec Ideal S1x1024 .f32) (h1 : S1x1024.ShapeCasts S1x1024) (h2 : S1x1024.Broadcasts S512x1024)
    (p : Fin 512) (q : Fin 1024) :
    broadcastTo S512x1024 (shapeCast S1x1024 (shapeCast S1x1024 x h1) h1) h2 (ix2 p q) = x (ix2 (0 : Fin 1) q) := by
  rw [shapeCast_self, shapeCast_self]
  exact broadcastTo_apply x h2 (ix2 p q) (ix2 (0 : Fin 1) q) (fun a => by
    match a with
    | ⟨0, _⟩ => rfl
    | ⟨1, _⟩ => rfl)

/-- The stored block at `(p, q)`, at grid position `i`. -/
theorem pay_apply (i : grid0.Coords) (x0 : Vec Ideal S1x1024 .f32) (p : Fin 512) (q : Fin 1024) :
    k0_pay1 (F := Ideal) i x0 (ix2 p q)
      = if (i 0).val * 512 + p.val = 0 then x0 (ix2 (0 : Fin 1) q)
        else if (i 0).val * 512 + p.val = (i 1).val * 1024 + q.val + 1 then Ideal.ofBits .f32 0x3C23D70A#32
        else 0 := by
  have hi0 : (i 0).val < 25 := (i 0).isLt
  have hi1 : (i 1).val < 12 := (i 1).isLt
  have hp : p.val < 512 := p.isLt
  have hq : q.val < 1024 := q.isLt
  unfold k0_pay1
  simp only [select, cmpi, addi, subi, broadcast]
  rw [iota_row, iota_col, bcast_row, select_cmpi_eq, select_cmpi_eq, row_word, col_word]
  have e1 : BitVec.ofNat 32 ((i 0).val * 512 + p.val) = 0#32 ↔ (i 0).val * 512 + p.val = 0 :=
    ofNat32_inj (b := 0) (by omega) (by omega)
  have e2 : IntOp.subi (BitVec.ofNat 32 ((i 0).val * 512 + p.val)) 1#32 = BitVec.ofNat 32 ((i 1).val * 1024 + q.val)
      ↔ (i 0).val * 512 + p.val = (i 1).val * 1024 + q.val + 1 := pred_word_eq (by omega) (by omega)
  simp only [e1, e2, Ideal.ofBits_def, Ideal.ofBits_zero_f32]

end Cert.Scatter

end
-- ==== Proof.Spec.lean ====
/-
  The result, stated once. The output matrix has one row more than it has columns: row 0 is the input row, and the
  rows below it are the epsilon times the identity — row `r ≥ 1` holds the epsilon at column `r − 1` and zero elsewhere.
  Reshaped to [12289, 3, 64, 64], column `k` is the feature position `(b, c, d)` with `k = (64·b + c)·64 + d`.
-/
import Idealize.ShloMosaic.PureOps.Ideal
import Idealize.ShloMosaic.Lib.ValueIdx

noncomputable section

namespace Cert.Scatter

open Idealize.ShloMosaic Idealize.ShloMosaic.ValueIdx

/-- The epsilon: the exact value of the binary32 nearest to 0.01. Both programs carry this one word, so its value is
    never computed. -/
abbrev eps : EReal := Ideal.ofBits .f32 0x3C23D70A#32

/-- The output matrix at row `r`, column `k`, from the input row `x`. -/
def matAt (x : (⟨2, ![1, 12288]⟩ : Shape).Idx → EReal) (r : Fin 12289) (k : Fin 12288) : EReal :=
  if r.val = 0 then x (ix2 (0 : Fin 1) k) else if r.val = k.val + 1 then eps else 0

/-- The output matrix [12289, 12288]. -/
def mat (x : (⟨2, ![1, 12288]⟩ : Shape).Idx → EReal) : (⟨2, ![12289, 12288]⟩ : Shape).Idx → EReal :=
  fun j => matAt x (j 0) (j 1)

/-- The result at `(a, b, c, d)`, from the input `x` of shape [1, 3, 64, 64]. -/
def outAt (x : (⟨4, ![1, 3, 64, 64]⟩ : Shape).Idx → EReal) (a : Fin 12289) (b : Fin 3) (c : Fin 64) (d : Fin 64) : EReal :=
  if a.val = 0 then x (ix4 (0 : Fin 1) b c d)
  else if a.val = (b.val * 64 + c.val) * 64 + d.val + 1 then eps else 0

/-- The result [12289, 3, 64, 64]. -/
def out (x : (⟨4, ![1, 3, 64, 64]⟩ : Shape).Idx → EReal) : (⟨4, ![12289, 3, 64, 64]⟩ : Shape).Idx → EReal :=
  fun j => outAt x (j 0) (j 1) (j 2) (j 3)

end Cert.Scatter

end
-- ==== Proof.Blocks.lean ====
/-
  From blocks to the matrix. At grid point `t = (i₀, i₁)` the body leaves in the output's buffer the block whose entry
  `(p, q)` is the specification's matrix at row `512·i₀ + p`, column `1024·i₁ + q`: the rows and columns the body
  computes from the grid position are the block's place in the matrix, and the input block it reads is columns
  `1024·i₁ …` of the one input row. The write-back moves the part of the block inside the matrix (the last block row
  has one row inside), so what point `t` writes back is the specification's matrix read through the block; every entry
  `(r, k)` of the matrix lies in the block of the point `(r / 512, k / 1024)`; hence the matrix after the launch is
  the specification's.
-/
import proofs.«103182_j17566416240900_1_alg».proof.Proof.KernelIdealFrame
import proofs.«103182_j17566416240900_1_alg».proof.Proof.GridFacts
import proofs.«103182_j17566416240900_1_alg».proof.Proof.Payload
import proofs.«103182_j17566416240900_1_alg».proof.Proof.Spec
import Idealize.ShloMosaic.Lib.Pipeline.Value

set_option maxRecDepth 16384

noncomputable section

namespace Cert.Scatter

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP

variable (m : (ℓ : Loc nD τ sig) → Buf (Elt Ideal) ℓ) (ρ : Dev nD → PrngReg)

/-- What point `t` writes back is the specification's matrix, of the input row as the launch finds it, read through
    the point's block. -/
theorem flushed_eq (c : Dev nD) (t : Fin cfg0.N) :
    (dats m 0 c).flushed 1 t = ((cfg0.win 1).blk t).view.read (Elt Ideal) (mat (V m c main_v0)) := by
  show (cfg0.win 1).cut (grid0.coords t) ((dats m 0 c).after 1 t) = _
  rw [after0_1]
  unfold out0_1
  rw [View.canon_unit_zero hz]
  simp only [View.ld_unit_zero (S := S1x1024) hz]
  funext j
  obtain ⟨e00, e01, e10, e11, hg0, hg1⟩ := idx_facts t
  have hj0 : (j 0).val < 512 := Nat.lt_of_lt_of_le (j 0).isLt ((win0 1).xsize_le (grid0.coords t) 0)
  have hj1 : (j 1).val < 1024 := Nat.lt_of_lt_of_le (j 1).isLt ((win0 1).xsize_le (grid0.coords t) 1)
  have hx : (win0 1).xinj (grid0.coords t) j = ix2 (⟨(j 0).val, hj0⟩ : Fin 512) (⟨(j 1).val, hj1⟩ : Fin 1024) := by
    funext a
    match a with
    | ⟨0, _⟩ => rfl
    | ⟨1, _⟩ => rfl
  -- the block's entry `j` sits at row `512·i₀ + j₀`, column `1024·i₁ + j₁` of the matrix
  have r0 : ((((cfg0.win 1).blk t).view.emb j) 0).val = (grid0.coords t 0).val * 512 + (j 0).val := by
    show win0_1.index t (0 : Fin 2) * 512 + 1 * (j 0).val = _
    omega
  have r1 : ((((cfg0.win 1).blk t).view.emb j) 1).val = (grid0.coords t 1).val * 1024 + (j 1).val := by
    show win0_1.index t (1 : Fin 2) * 1024 + 1 * (j 1).val = _
    omega
  -- the input block's entry `j₁` is the input row's entry at that column
  have hX : iblk m c 0 t (ix2 (0 : Fin 1) (⟨(j 1).val, hj1⟩ : Fin 1024))
      = V m c main_v0 (ix2 (0 : Fin 1) ((((cfg0.win 1).blk t).view.emb j) 1)) := by
    show V m c main_v0 (((cfg0.win 0).blk t).view.emb (ix2 (0 : Fin 1) (⟨(j 1).val, hj1⟩ : Fin 1024))) = _
    refine congrArg (V m c main_v0) (funext fun a => Fin.ext ?_)
    match a with
    | ⟨0, _⟩ =>
      show win0_0.index t (0 : Fin 2) * 1 + 1 * 0 = 0
      omega
    | ⟨1, _⟩ =>
      show win0_0.index t (1 : Fin 2) * 1024 + 1 * (j 1).val = win0_1.index t (1 : Fin 2) * 1024 + 1 * (j 1).val
      omega
  show k0_pay1 (F := Ideal) (grid0.coords t) (iblk m c 0 t) ((win0 1).xinj (grid0.coords t) j)
    = matAt (V m c main_v0) ((((cfg0.win 1).blk t).view.emb j) 0) ((((cfg0.win 1).blk t).view.emb j) 1)
  rw [hx]
  refine (pay_apply (grid0.coords t) (iblk m c 0 t) ⟨(j 0).val, hj0⟩ ⟨(j 1).val, hj1⟩).trans ?_
  unfold matAt
  simp only [r0, r1]
  exact if_congr Iff.rfl hX rfl

/-- An entry of the matrix is in point `t`'s block exactly when each coordinate is in the block's range on its axis, the
    range cut to the matrix. -/
theorem mem_blk (t : Fin cfg0.N) (i : S12289x12288.Idx) :
    i ∈ ((cfg0.win 1).blk t).view.set ↔ ∀ a : Fin 2, win0_1.index t a * S512x1024.size a ≤ (i a).val
      ∧ (i a).val < win0_1.index t a * S512x1024.size a + win0_1.xsize (grid0.coords t) a := by
  show i ∈ ((View.whole main_v1).slice (win0_1.rect t)).set ↔ _
  rw [View.set_slice_whole, Rect.mem_set_unit]
  exact Iff.rfl

/-- Every entry of the matrix is in the block of some point that writes back: entry `(r, k)` in that of the point
    `(r / 512, k / 1024)`. -/
theorem cover (i : S12289x12288.Idx) :
    ∃ t : Fin cfg0.N, (cfg0.win 1).flush t = true ∧ i ∈ ((cfg0.win 1).blk t).view.set := by
  have hi0 : (i 0).val < 12289 := (i 0).isLt
  have hi1 : (i 1).val < 12288 := (i 1).isLt
  obtain ⟨t, ht⟩ := idx_onto ⟨(i 0).val / 512, by omega⟩ ⟨(i 1).val / 1024, by omega⟩
  have q0 : win0_1.index t (0 : Fin 2) = (i 0).val / 512 := congrFun ht 0
  have q1 : win0_1.index t (1 : Fin 2) = (i 1).val / 1024 := congrFun ht 1
  refine ⟨t, flush0_1 t, ?_⟩
  rw [mem_blk]
  intro a
  match a with
  | ⟨0, _⟩ =>
    show win0_1.index t (0 : Fin 2) * 512 ≤ (i 0).val
      ∧ (i 0).val < win0_1.index t (0 : Fin 2) * 512 + (Pipeline.Clip.of (win0_1.index t (0 : Fin 2)) 512 12289).extent 512
    rw [extent_of, q0]
    split <;> omega
  | ⟨1, _⟩ =>
    show win0_1.index t (1 : Fin 2) * 1024 ≤ (i 1).val
      ∧ (i 1).val < win0_1.index t (1 : Fin 2) * 1024 + (Pipeline.Clip.of (win0_1.index t (1 : Fin 2)) 1024 12288).extent 1024
    rw [extent_of, q1]
    split <;> omega

/-- The matrix after the launch is the specification's, of the input row as the launch finds it. -/
theorem final (c : Dev nD) : (dats m 0 c).arrAt 1 cfg0.N = mat (V m c main_v0) :=
  (dats m 0 c).arrAt_eq_of_cover 1 (mat (V m c main_v0)) (fun t _ => flushed_eq m c t) cover

end Cert.Scatter

end
-- ==== Proof.KernelValue.lean ====
/-
  The kernel's run, as a value. The host reshapes the argument [1, 3, 64, 64] to the input row [1, 12288] before the
  launch and the matrix [12289, 12288] to the result [12289, 3, 64, 64] after it. A reshape keeps the row-major position:
  the result's entry `(a, b, c, d)` is the matrix at row `a`, column `(64·b + c)·64 + d`, and the input row's entry at that
  column is the argument's entry `(0, b, c, d)`. So the result is the specification of the argument.
-/
import proofs.«103182_j17566416240900_1_alg».proof.Proof.Blocks
import Idealize.ShloMosaic.Lib.StableHlo.Run

set_option maxRecDepth 16384

noncomputable section

namespace Cert.Scatter

open Idealize.ShloMosaic Idealize.ShloMosaic.TcCoe Idealize.ShloMosaic.ValueIdx Idealize.SL.Sem
open Idealize.ShloMosaic.StableHlo
open Cert.KernelIdeal Cert.KernelIdeal.Gen Cert.KernelIdeal.GenP

variable (m : (ℓ : Loc nD τ sig) → Buf (Elt Ideal) ℓ) (ρ : Dev nD → PrngReg)

/-- The input row as the launch finds it is the argument, reshaped. -/
theorem V_v0 (c : Dev nD) :
    (V m c main_v0 : S1x12288.Idx → EReal)
      = shapeCast S1x12288 (m ((c : Thread nD τ).loc main_arg0)) shapeCasts_S1x3x64x64_S1x12288 := by
  show StableHlo.after hostOps0 (fun b => m (c, b)) (Proc.devRef .tc main_v0) = _
  after_results
  rfl

/-- The result after the lines that follow the launch is the matrix after the launch, reshaped. -/
theorem tail_eq (c : Dev nD) :
    (Pipeline.afterTail₀ cfgs (dats m) 0 (V0 m) [hostOps1] c main_v2 : S12289x3x64x64.Idx → EReal)
      = shapeCast S12289x3x64x64 (mat (V m c main_v0)) shapeCasts_S12289x12288_S12289x3x64x64 := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = mat (V m c main_v0) :=
    (Pipeline.withArrays_arr spec0 launch0.win.arr_inj c _ _ 1).trans (final m c)
  rw [hw]
  rfl

/-- The specification's matrix of the reshaped argument, reshaped, is the specification's result of the argument. -/
theorem reshape_mat (x : S1x3x64x64.Idx → EReal) (h1 : S1x3x64x64.ShapeCasts S1x12288)
    (h2 : S12289x12288.ShapeCasts S12289x3x64x64) :
    shapeCast S12289x3x64x64 (mat (shapeCast S1x12288 x h1)) h2 = out x := by
  funext j
  obtain ⟨a, b, c, d, rfl⟩ : ∃ (a : Fin 12289) (b : Fin 3) (c : Fin 64) (d : Fin 64), j = ix4 a b c d :=
    ⟨j 0, j 1, j 2, j 3, eq_ix4 j⟩
  have ha : a.val < 12289 := a.isLt
  have hb : b.val < 3 := b.isLt
  have hc : c.val < 64 := c.isLt
  have hd : d.val < 64 := d.isLt
  have hk : (b.val * 64 + c.val) * 64 + d.val < 12288 := by omega
  rw [shapeCast_apply (mat (shapeCast S1x12288 x h1)) h2 (ix4 a b c d)
    (ix2 a (⟨(b.val * 64 + c.val) * 64 + d.val, hk⟩ : Fin 12288)) (by
      rw [Shape.rowMajor_val_two, Shape.rowMajor_val_four]
      show a.val * 12288 + ((b.val * 64 + c.val) * 64 + d.val) = ((a.val * 3 + b.val) * 64 + c.val) * 64 + d.val
      omega)]
  show matAt (shapeCast S1x12288 x h1) a ⟨(b.val * 64 + c.val) * 64 + d.val, hk⟩ = outAt x a b c d
  unfold matAt outAt
  refine if_congr Iff.rfl ?_ rfl
  exact shapeCast_apply x h1 (ix2 (0 : Fin 1) (⟨(b.val * 64 + c.val) * 64 + d.val, hk⟩ : Fin 12288))
    (ix4 (0 : Fin 1) b c d) (by
      rw [Shape.rowMajor_val_four, Shape.rowMajor_val_two]
      show ((0 * 3 + b.val) * 64 + c.val) * 64 + d.val = 0 * 12288 + ((b.val * 64 + c.val) * 64 + d.val)
      omega)

/-- The result after the whole program is the specification of the argument. -/
theorem result_eq (c : Dev nD) :
    (Pipeline.afterTail₀ cfgs (dats m) 0 (V0 m) [hostOps1] c main_v2 : S12289x3x64x64.Idx → EReal)
      = out (m ((c : Thread nD τ).loc main_arg0)) := by
  rw [tail_eq, V_v0]
  exact reshape_mat _ _ _

/-- Every weakly fair execution of the idealized kernel program terminates with the result at the specification of the
    argument and the argument unchanged. -/
theorem kernel_run : θ_run defs (onTc (τ := τ) (main (F := Ideal))) ⟨m, fun _ => 0, ρ⟩ fun r => ∀ c : Dev nD,
      r.2.mem ((c.tc : Thread nD τ).loc main_v2) = out (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.Scatter

end
-- ==== Proof.RefValue.lean ====
/-
  The reference computes the specification. Its matrix `eps · eye` holds, at `(p, k)`, the epsilon times the float of the
  bit "p = k": the epsilon on the diagonal (times one) and zero off it (times zero) — both products exact on the extended
  reals. Reshaped to [12288, 3, 64, 64], entry `(a, b, c, d)` is the matrix at row `a`, column `(64·b + c)·64 + d`. The
  concatenation along the leading axis puts the input in front: row 0 is the input, row `a ≥ 1` is row `a − 1` of the
  reshaped matrix, which holds the epsilon exactly when `a − 1 = (64·b + c)·64 + d`.
-/
import proofs.«103182_j17566416240900_1_alg».proof.Proof.Gen.ReferenceIdeal.Read
import proofs.«103182_j17566416240900_1_alg».proof.Proof.Words
import proofs.«103182_j17566416240900_1_alg».proof.Proof.Spec
import Idealize.ShloMosaic.Lib.Pipeline.Value
import Idealize.ShloMosaic.Lib.ValueIdx

noncomputable section

namespace Cert.Scatter

open Idealize.ShloMosaic Idealize.ShloMosaic.ValueIdx Cert.ReferenceIdeal Cert.ReferenceIdeal.Gen Cert.ReferenceIdeal.Read

/-- The epsilon times the identity, at row `p` and column `k`. -/
theorem eye_apply (p k : Fin 12288) :
    val_main_v7 (F := Ideal) (ix2 p k) = if p.val = k.val then eps else 0 := by
  have hp : p.val < 12288 := p.isLt
  have hk : k.val < 12288 := k.isLt
  rw [val_main_v7_apply, val_main_v6_apply, val_main_cst_apply, val_main_v5_apply, val_main_v4_apply, val_main_v3_apply,
    val_main_v0_apply, val_main_v2_apply, val_main_c_apply, val_main_v1_apply, uitofp_cmpi_eq]
  have hw : IntOp.addi (BitVec.ofNat 32 p.val) 0#32 = BitVec.ofNat 32 k.val ↔ p.val = k.val := by
    unfold IntOp.addi; rw [BitVec.add_zero]; exact ofNat32_inj (by omega) (by omega)
  show (Ideal.ofBits .f32 0x3C23D70A#32 : EReal)
      * (if IntOp.addi (BitVec.ofNat 32 p.val) 0#32 = BitVec.ofNat 32 k.val then (1 : EReal) else 0) = _
  simp only [hw]
  split
  · rw [mul_one]
  · rw [mul_zero]

/-- Where the reshape reads the matrix: row `a`, column the flattened feature position. -/
theorem idx_v8 (a : Fin 12288) (b : Fin 3) (c : Fin 64) (d : Fin 64) (hk : (b.val * 64 + c.val) * 64 + d.val < 12288) :
    idx_main_v8 (ix4 a b c d) = ix2 a (⟨(b.val * 64 + c.val) * 64 + d.val, hk⟩ : Fin 12288) := by
  have ha : a.val < 12288 := a.isLt
  have hb : b.val < 3 := b.isLt
  have hc : c.val < 64 := c.isLt
  have hd : d.val < 64 := d.isLt
  funext e; apply Fin.ext
  match e with
  | ⟨0, _⟩ =>
    show (((a.val * 3 + b.val) * 64 + c.val) * 64 + d.val) / 12288 = a.val
    omega
  | ⟨1, _⟩ =>
    show (((a.val * 3 + b.val) * 64 + c.val) * 64 + d.val) % 12288 = (b.val * 64 + c.val) * 64 + d.val
    omega

/-- The reference's result is the specification of its argument. -/
theorem ref_eq (x : (⟨S1x3x64x64, .f32⟩ : BufTy).Contents (Elt Ideal)) : val_main_v9 (F := Ideal) x = out x := by
  funext j
  obtain ⟨a, b, c, d, rfl⟩ : ∃ (a : Fin 12289) (b : Fin 3) (c : Fin 64) (d : Fin 64), j = ix4 a b c d :=
    ⟨j 0, j 1, j 2, j 3, eq_ix4 j⟩
  have ha : a.val < 12289 := a.isLt
  have hb : b.val < 3 := b.isLt
  have hc : c.val < 64 := c.isLt
  have hd : d.val < 64 := d.isLt
  have hk : (b.val * 64 + c.val) * 64 + d.val < 12288 := by omega
  show _ = outAt x a b c d
  unfold val_main_v9 outAt
  by_cases h0 : a.val = 0
  · rw [if_pos h0]
    exact concatenate_pair_apply_left (0 : Fin 4) x (val_main_v8 (F := Ideal)) _ (ix4 a b c d) rfl
      (ix4 (0 : Fin 1) b c d) (fun e => by
        match e with
        | ⟨0, _⟩ => exact h0.symm
        | ⟨1, _⟩ => rfl
        | ⟨2, _⟩ => rfl
        | ⟨3, _⟩ => rfl)
  · rw [if_neg h0]
    have e := concatenate_pair_apply_right (0 : Fin 4) x (val_main_v8 (F := Ideal))
      concatenates_S1x3x64x64_S12288x3x64x64_S12289x3x64x64_d0 (ix4 a b c d) rfl rfl
      (ix4 (⟨a.val - 1, by omega⟩ : Fin 12288) b c d) (fun e _ => by
        match e with
        | ⟨0, _⟩ => contradiction
        | ⟨1, _⟩ => rfl
        | ⟨2, _⟩ => rfl
        | ⟨3, _⟩ => rfl)
      (by show a.val - 1 + 1 = a.val; omega)
    rw [e, val_main_v8_apply, idx_v8 _ b c d hk, eye_apply]
    exact if_congr (by show a.val - 1 = (b.val * 64 + c.val) * 64 + d.val ↔ _; omega) rfl rfl

end Cert.Scatter

end
-- ==== Proof.lean ====
/-
  The diagonal-scatter kernel against its reference: `concat(x, eps · eye)` over [1, 3, 64, 64], the features flattened
  to 12288 columns, the result [12289, 3, 64, 64].

  The kernel writes the [12289, 12288] matrix tile by tile on a 25 × 12 grid, computing each element from its row and
  column identifiers: the input row where the row is 0, the epsilon where the row is the column's successor, zero
  elsewhere. The reference multiplies the epsilon by the float of the identity's bits and concatenates the input in
  front. On the extended reals the epsilon times one is the epsilon and the epsilon times zero is zero, so both programs
  compute one function of the input (`Cert.Scatter.out`), entry by entry; no finiteness of the input is used.

  The three frames are the programs' runs with the result dropped; the idealized kernel is the kernel's own text read
  over the extended reals (no operation is replaced), so that claim is trivial; the algebraic claim puts the kernel's run (its final matrix
  read off the launch's blocks, then reshaped) beside the reference's run (read one operation at a time), both at the
  specification of arguments that agree.
-/
import proofs.«103182_j17566416240900_1_alg».proof.Defs
import proofs.«103182_j17566416240900_1_alg».proof.Proof.Gen.Kernel
import proofs.«103182_j17566416240900_1_alg».proof.Proof.Gen.KernelIdeal
import proofs.«103182_j17566416240900_1_alg».proof.Proof.Gen.ReferenceIdeal
import proofs.«103182_j17566416240900_1_alg».proof.Proof.Gen.Pre_finite_inputs
import proofs.«103182_j17566416240900_1_alg».proof.Proof.KernelFrame
import proofs.«103182_j17566416240900_1_alg».proof.Proof.KernelIdealFrame
import proofs.«103182_j17566416240900_1_alg».proof.Proof.Gen.ReferenceIdeal.Run
import proofs.«103182_j17566416240900_1_alg».proof.Proof.Gen.ReferenceIdeal.Read
import proofs.«103182_j17566416240900_1_alg».proof.Proof.KernelValue
import proofs.«103182_j17566416240900_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its argument unchanged. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both idealized programs end at the specification of the argument. -/
theorem algebraic : Cert.algebraic_KernelIdeal_ReferenceIdeal := by
  intro m ρ m' ρ' _ hagree
  refine ⟨fun c => Cert.Scatter.out (m ((c.tc : Thread Cert.KernelIdeal.nD Cert.KernelIdeal.τ).loc Cert.KernelIdeal.main_arg0)),
    Cert.Scatter.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Scatter.ref_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
